-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x8576 : Shape := ⟨3, ![16, 512, 8576]⟩
abbrev S8576 : Shape := ⟨1, ![8576]⟩
abbrev S_ : Shape := ⟨0, ![]⟩

class Facts : Prop where
  bcast_S_S16x512x8576 : S_.BroadcastsInDim S16x512x8576 (![] : Fin 0 → Fin S16x512x8576.rank)
  reducesTo_S16x512x8576_S_d0_1_2 : S16x512x8576.ReducesTo [0, 1, 2] S_
  h_S_ : 0 < S_.numel
  bcast_S_S8576 : S_.BroadcastsInDim S8576 (![] : Fin 0 → Fin S8576.rank)
  reducesTo_S8576_S_d0 : S8576.ReducesTo [0] S_

variable [Facts]

def fn_part1 {F : FTy → Type} [FloatOps F] (main_v13 : IVec S_ 1) (main_v16 : IVec S8576 1) : IVec S_ 1 :=
  let main_c_5 : IVec S_ 1 := constantI S_ 1 1#1
  let main_v17 : IVec S_ 1 := (fun x v => Host.reduce IntOp.andi x v reducesTo_S8576_S_d0 h_S_) main_v16 main_c_5
  let main_v18 : IVec S_ 1 := andi main_v13 main_v17
  main_v18

def fn {F : FTy → Type} [FloatOps F] (main_arg0 : FVec F S16x512x8576 .f32) (main_arg1 : FVec F S16x512x8576 .f32) (main_arg2 : FVec F S8576 .f32) (main_arg3 : FVec F S8576 .f32) : IVec S_ 1 :=
  let main_v0 : FVec F S16x512x8576 .f32 := Host.absf main_arg0
  let main_cst : FVec F S_ .f32 := constant S_ .f32 0x7F800000#32
  let main_v1 : FVec F S16x512x8576 .f32 := broadcastInDim S16x512x8576 ![] bcast_S_S16x512x8576 main_cst
  let main_v2 : IVec S16x512x8576 1 := cmpf .olt main_v0 main_v1
  let main_c : IVec S_ 1 := constantI S_ 1 1#1
  let main_v3 : IVec S_ 1 := (fun x v => Host.reduce IntOp.andi x v reducesTo_S16x512x8576_S_d0_1_2 h_S_) main_v2 main_c
  let main_v4 : FVec F S16x512x8576 .f32 := Host.absf main_arg1
  let main_cst_0 : FVec F S_ .f32 := constant S_ .f32 0x7F800000#32
  let main_v5 : FVec F S16x512x8576 .f32 := broadcastInDim S16x512x8576 ![] bcast_S_S16x512x8576 main_cst_0
  let main_v6 : IVec S16x512x8576 1 := cmpf .olt main_v4 main_v5
  let main_c_1 : IVec S_ 1 := constantI S_ 1 1#1
  let main_v7 : IVec S_ 1 := (fun x v => Host.reduce IntOp.andi x v reducesTo_S16x512x8576_S_d0_1_2 h_S_) main_v6 main_c_1
  let main_v8 : IVec S_ 1 := andi main_v3 main_v7
  let main_v9 : FVec F S8576 .f32 := Host.absf main_arg2
  let main_cst_2 : FVec F S_ .f32 := constant S_ .f32 0x7F800000#32
  let main_v10 : FVec F S8576 .f32 := broadcastInDim S8576 ![] bcast_S_S8576 main_cst_2
  let main_v11 : IVec S8576 1 := cmpf .olt main_v9 main_v10
  let main_c_3 : IVec S_ 1 := constantI S_ 1 1#1
  let main_v12 : IVec S_ 1 := (fun x v => Host.reduce IntOp.andi x v reducesTo_S8576_S_d0 h_S_) main_v11 main_c_3
  let main_v13 : IVec S_ 1 := andi main_v8 main_v12
  let main_v14 : FVec F S8576 .f32 := Host.absf main_arg3
  let main_cst_4 : FVec F S_ .f32 := constant S_ .f32 0x7F800000#32
  let main_v15 : FVec F S8576 .f32 := broadcastInDim S8576 ![] bcast_S_S8576 main_cst_4
  let main_v16 : IVec S8576 1 := cmpf .olt main_v14 main_v15
  fn_part1 (F := F) main_v13 main_v16
-- ==== Kernel.lean ====
abbrev S16x512x8576 : Shape := ⟨3, ![16, 512, 8576]⟩
abbrev S8576 : Shape := ⟨1, ![8576]⟩
abbrev S8192x8576 : Shape := ⟨2, ![8192, 8576]⟩
abbrev S1x8576 : Shape := ⟨2, ![1, 8576]⟩
abbrev S256x8576 : Shape := ⟨2, ![256, 8576]⟩
abbrev S_ : Shape := ⟨0, ![]⟩
abbrev S128x8576 : Shape := ⟨2, ![128, 8576]⟩

abbrev nBuf : Space → Nat
  | .hbm => 27
  | .vmem => 14
  | .smem => 0
  | _ => 0

abbrev bufTy : (tb : Table) → Fin (tcTables nBuf tb) → BufTy
  | .hbm, ⟨0, _⟩ => ⟨S16x512x8576, .f32⟩
  | .hbm, ⟨1, _⟩ => ⟨S16x512x8576, .f32⟩
  | .hbm, ⟨2, _⟩ => ⟨S8576, .f32⟩
  | .hbm, ⟨3, _⟩ => ⟨S8576, .f32⟩
  | .hbm, ⟨4, _⟩ => ⟨S8192x8576, .f32⟩
  | .hbm, ⟨5, _⟩ => ⟨S8192x8576, .f32⟩
  | .hbm, ⟨6, _⟩ => ⟨S1x8576, .f32⟩
  | .hbm, ⟨7, _⟩ => ⟨S1x8576, .f32⟩
  | .hbm, ⟨8, _⟩ => ⟨S_, .f32⟩
  | .hbm, ⟨9, _⟩ => ⟨S1x8576, .f32⟩
  | .hbm, ⟨10, _⟩ => ⟨S1x8576, .f32⟩
  | .hbm, ⟨11, _⟩ => ⟨S_, .f32⟩
  | .hbm, ⟨12, _⟩ => ⟨S1x8576, .f32⟩
  | .hbm, ⟨13, _⟩ => ⟨S1x8576, .f32⟩
  | .hbm, ⟨14, _⟩ => ⟨S1x8576, .f32⟩
  | .hbm, ⟨15, _⟩ => ⟨S1x8576, .f32⟩
  | .hbm, ⟨16, _⟩ => ⟨S_, .f32⟩
  | .hbm, ⟨17, _⟩ => ⟨S1x8576, .f32⟩
  | .hbm, ⟨18, _⟩ => ⟨S1x8576, .f32⟩
  | .hbm, ⟨19, _⟩ => ⟨S_, .f32⟩
  | .hbm, ⟨20, _⟩ => ⟨S1x8576, .f32⟩
  | .hbm, ⟨21, _⟩ => ⟨S1x8576, .f32⟩
  | .hbm, ⟨22, _⟩ => ⟨S1x8576, .f32⟩
  | .hbm, ⟨23, _⟩ => ⟨S1x8576, .f32⟩
  | .hbm, ⟨24, _⟩ => ⟨S1x8576, .f32⟩
  | .hbm, ⟨25, _⟩ => ⟨S8192x8576, .f32⟩
  | .hbm, ⟨26, _⟩ => ⟨S16x512x8576, .f32⟩
  | .local _ .vmem, ⟨0, _⟩ => ⟨S256x8576, .f32⟩
  | .local _ .vmem, ⟨1, _⟩ => ⟨S256x8576, .f32⟩
  | .local _ .vmem, ⟨2, _⟩ => ⟨S1x8576, .f32⟩
  | .local _ .vmem, ⟨3, _⟩ => ⟨S1x8576, .f32⟩
  | .local _ .vmem, ⟨4, _⟩ => ⟨S128x8576, .f32⟩
  | .local _ .vmem, ⟨5, _⟩ => ⟨S128x8576, .f32⟩
  | .local _ .vmem, ⟨6, _⟩ => ⟨S128x8576, .f32⟩
  | .local _ .vmem, ⟨7, _⟩ => ⟨S128x8576, .f32⟩
  | .local _ .vmem, ⟨8, _⟩ => ⟨S1x8576, .f32⟩
  | .local _ .vmem, ⟨9, _⟩ => ⟨S1x8576, .f32⟩
  | .local _ .vmem, ⟨10, _⟩ => ⟨S1x8576, .f32⟩
  | .local _ .vmem, ⟨11, _⟩ => ⟨S1x8576, .f32⟩
  | .local _ .vmem, ⟨12, _⟩ => ⟨S128x8576, .f32⟩
  | .local _ .vmem, ⟨13, _⟩ => ⟨S128x8576, .f32⟩
  | _, _ => ⟨S16x512x8576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8576 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8576 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8576 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8576 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8576 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x8576 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S16x512x8576_S8192x8576 : S16x512x8576.ShapeCasts S8192x8576
  inb_S1x8576_S1x8576_0_0 : ∀ a, (![0, 0] : Fin 2 → Nat) a + S1x8576.size a ≤ S1x8576.size a
  h_S1x8576 : 0 < S1x8576.numel
  inb_S256x8576_S256x8576_0_0 : ∀ a, (![0, 0] : Fin 2 → Nat) a + S256x8576.size a ≤ S256x8576.size a
  h_S256x8576 : 0 < S256x8576.numel
  shapeCasts_S256x8576_S256x8576 : S256x8576.ShapeCasts S256x8576
  shapeCasts_S1x8576_S1x8576 : S1x8576.ShapeCasts S1x8576
  reduces_S256x8576_S8576 : S256x8576.Reduces [0] S8576
  shapeCasts_S8576_S1x8576 : S8576.ShapeCasts S1x8576
  bcast_S_S1x8576 : S_.BroadcastsInDim S1x8576 (![] : Fin 0 → Fin S1x8576.rank)
  inb_S128x8576_S128x8576_0_0 : ∀ a, (![0, 0] : Fin 2 → Nat) a + S128x8576.size a ≤ S128x8576.size a
  h_S128x8576 : 0 < S128x8576.numel
  shapeCasts_S128x8576_S128x8576 : S128x8576.ShapeCasts S128x8576
  broadcasts_S1x8576_S128x8576 : S1x8576.Broadcasts S128x8576
  shapeCasts_S8192x8576_S16x512x8576 : S8192x8576.ShapeCasts S16x512x8576
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8576.size a ≤ S8192x8576.size a
  hwx0_0 : ∀ i : grid0.Coords, EltTy.bits .f32 = 32 ∨ (Rect.block (s := S8192x8576) S256x8576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8576.size a ≤ S1x8576.size a
  hwx0_1 : ∀ i : grid0.Coords, EltTy.bits .f32 = 32 ∨ (Rect.block (s := S1x8576) S1x8576.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8576.size a ≤ S1x8576.size a
  hwx0_2 : ∀ i : grid0.Coords, EltTy.bits .f32 = 32 ∨ (Rect.block (s := S1x8576) S1x8576.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8576.size a ≤ S8192x8576.size a
  hwx1_0 : ∀ i : grid1.Coords, EltTy.bits .f32 = 32 ∨ (Rect.block (s := S8192x8576) S128x8576.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8576.size a ≤ S8192x8576.size a
  hwx1_1 : ∀ i : grid1.Coords, EltTy.bits .f32 = 32 ∨ (Rect.block (s := S8192x8576) S128x8576.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8576.size a ≤ S1x8576.size a
  hwx1_2 : ∀ i : grid1.Coords, EltTy.bits .f32 = 32 ∨ (Rect.block (s := S1x8576) S1x8576.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8576.size a ≤ S1x8576.size a
  hwx1_3 : ∀ i : grid1.Coords, EltTy.bits .f32 = 32 ∨ (Rect.block (s := S1x8576) S1x8576.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8576.size a ≤ S1x8576.size a
  hwx1_4 : ∀ i : grid1.Coords, EltTy.bits .f32 = 32 ∨ (Rect.block (s := S1x8576) S1x8576.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8576.size a ≤ S1x8576.size a
  hwx1_5 : ∀ i : grid1.Coords, EltTy.bits .f32 = 32 ∨ (Rect.block (s := S1x8576) S1x8576.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x8576.size a ≤ S8192x8576.size a
  hwx1_6 : ∀ i : grid1.Coords, EltTy.bits .f32 = 32 ∨ (Rect.block (s := S8192x8576) S128x8576.size (cc1_transform_6 i) (hinb1_6 i)).WholeWords (EltTy.packing .f32)

variable [Facts₀]

abbrev win0_0 : Pipeline.Window sig grid0 :=
  Pipeline.Window.ofSpec (Memref.whole main_v0) S256x8576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x8576.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x8576.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S128x8576.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x8576.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x8576.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x8576.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x8576.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x8576.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S128x8576.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x512x8576 : Shape := ⟨3, ![16, 512, 8576]⟩
abbrev S8576 : Shape := ⟨1, ![8576]⟩
abbrev S_ : Shape := ⟨0, ![]⟩
abbrev S1x1x8576 : Shape := ⟨3, ![1, 1, 8576]⟩

abbrev nBuf : Space → Nat
  | .hbm => 41
  | .vmem => 0
  | .smem => 0
  | _ => 0

abbrev bufTy : (tb : Table) → Fin (tcTables nBuf tb) → BufTy
  | .hbm, ⟨0, _⟩ => ⟨S16x512x8576, .f32⟩
  | .hbm, ⟨1, _⟩ => ⟨S16x512x8576, .f32⟩
  | .hbm, ⟨2, _⟩ => ⟨S8576, .f32⟩
  | .hbm, ⟨3, _⟩ => ⟨S8576, .f32⟩
  | .hbm, ⟨4, _⟩ => ⟨S_, .f32⟩
  | .hbm, ⟨5, _⟩ => ⟨S8576, .f32⟩
  | .hbm, ⟨6, _⟩ => ⟨S_, .f32⟩
  | .hbm, ⟨7, _⟩ => ⟨S8576, .f32⟩
  | .hbm, ⟨8, _⟩ => ⟨S8576, .f32⟩
  | .hbm, ⟨9, _⟩ => ⟨S1x1x8576, .f32⟩
  | .hbm, ⟨10, _⟩ => ⟨S16x512x8576, .f32⟩
  | .hbm, ⟨11, _⟩ => ⟨S16x512x8576, .f32⟩
  | .hbm, ⟨12, _⟩ => ⟨S16x512x8576, .f32⟩
  | .hbm, ⟨13, _⟩ => ⟨S_, .f32⟩
  | .hbm, ⟨14, _⟩ => ⟨S8576, .f32⟩
  | .hbm, ⟨15, _⟩ => ⟨S_, .f32⟩
  | .hbm, ⟨16, _⟩ => ⟨S8576, .f32⟩
  | .hbm, ⟨17, _⟩ => ⟨S8576, .f32⟩
  | .hbm, ⟨18, _⟩ => ⟨S1x1x8576, .f32⟩
  | .hbm, ⟨19, _⟩ => ⟨S16x512x8576, .f32⟩
  | .hbm, ⟨20, _⟩ => ⟨S16x512x8576, .f32⟩
  | .hbm, ⟨21, _⟩ => ⟨S_, .f32⟩
  | .hbm, ⟨22, _⟩ => ⟨S8576, .f32⟩
  | .hbm, ⟨23, _⟩ => ⟨S8576, .f32⟩
  | .hbm, ⟨24, _⟩ => ⟨S8576, .f32⟩
  | .hbm, ⟨25, _⟩ => ⟨S1x1x8576, .f32⟩
  | .hbm, ⟨26, _⟩ => ⟨S16x512x8576, .f32⟩
  | .hbm, ⟨27, _⟩ => ⟨S16x512x8576, .f32⟩
  | .hbm, ⟨28, _⟩ => ⟨S1x1x8576, .f32⟩
  | .hbm, ⟨29, _⟩ => ⟨S16x512x8576, .f32⟩
  | .hbm, ⟨30, _⟩ => ⟨S16x512x8576, .f32⟩
  | .hbm, ⟨31, _⟩ => ⟨S1x1x8576, .f32⟩
  | .hbm, ⟨32, _⟩ => ⟨S16x512x8576, .f32⟩
  | .hbm, ⟨33, _⟩ => ⟨S16x512x8576, .f32⟩
  | .hbm, ⟨34, _⟩ => ⟨S_, .f32⟩
  | .hbm, ⟨35, _⟩ => ⟨S16x512x8576, .f32⟩
  | .hbm, ⟨36, _⟩ => ⟨S16x512x8576, .f32⟩
  | .hbm, ⟨37, _⟩ => ⟨S_, .f32⟩
  | .hbm, ⟨38, _⟩ => ⟨S16x512x8576, .f32⟩
  | .hbm, ⟨39, _⟩ => ⟨S16x512x8576, .f32⟩
  | .hbm, ⟨40, _⟩ => ⟨S16x512x8576, .f32⟩
  | _, _ => ⟨S16x512x8576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S16x512x8576_S8576_d0_1 : S16x512x8576.ReducesTo [0, 1] S8576
  h_S_ : 0 < S_.numel
  bcast_S_S8576 : S_.BroadcastsInDim S8576 (![] : Fin 0 → Fin S8576.rank)
  bcast_S8576_S1x1x8576_2 : S8576.BroadcastsInDim S1x1x8576 (![2] : Fin 1 → Fin S1x1x8576.rank)
  bcast_S1x1x8576_S16x512x8576_0_1_2 : S1x1x8576.BroadcastsInDim S16x512x8576 (![0, 1, 2] : Fin 3 → Fin S16x512x8576.rank)
  bcast_S_S16x512x8576 : S_.BroadcastsInDim S16x512x8576 (![] : Fin 0 → Fin S16x512x8576.rank)

variable [Facts₀]

class Facts : Prop extends Facts₀ where

variable [Facts]
-- ==== Proof.KernelRun.lean ====
/-
  The two-stage program's run with its result named. Every weakly fair execution terminates without a fault; the
  argument arrays end as launched, and the result array ends at the last boundary's contents of its buffer: the
  contents obtained by threading the launch memory through the host operations before the first stage, the first
  stage's write-backs, the host operations between the stages, the second stage's write-backs, and the final
  reshape.
-/
import proofs.«116066_j39367670235562_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v17) = W5 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v17 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Whole

end
-- ==== Proof.StatsPiece.lean ====
/-
  The first stage's body, case by case: what one grid point leaves in the two running rows.

  At the first point the rows are cleared and the point's 256-row block is added in, so the rows hold
  `0 + (column sums of the block)` and `0 + (column sums of its squares)`; at every later point the block's
  column sums are added to what the rows held before.
-/
import proofs.«116066_j39367670235562_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stats

open Cert.KernelIdeal Cert.KernelIdeal.Gen

variable {F : FTy → Type} [FloatOps F]

theorem hz : (![0, 0] : Fin 2 → Nat) = fun _ => 0 := funext fun a => by fin_cases a <;> rfl

/-- A later point adds the block's column sums to the running row of sums. -/
theorem sum_later (c : Dev nD) (i : grid0.Coords) (a1 : Memref sig .tc .vmem S256x8576 .f32) (h1 : a1.IsWhole)
    (a2 : Memref sig .tc .vmem S1x8576 .f32) (h2 : a2.IsWhole) (a3 : Memref sig .tc .vmem S1x8576 .f32) (h3 : a3.IsWhole)
    (hc : ¬cond0_0 i) (x : Vec F S256x8576 .f32) (xo1 xo2 : Vec F S1x8576 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, h3.read_unread, View.ld_unit_zero (S := S256x8576) hz,
    View.ld_unit_zero (S := S1x8576) hz]

/-- A later point adds the column sums of the block's squares to the running row of squares. -/
theorem sq_later (c : Dev nD) (i : grid0.Coords) (a1 : Memref sig .tc .vmem S256x8576 .f32) (h1 : a1.IsWhole)
    (a2 : Memref sig .tc .vmem S1x8576 .f32) (h2 : a2.IsWhole) (a3 : Memref sig .tc .vmem S1x8576 .f32) (h3 : a3.IsWhole)
    (hc : ¬cond0_0 i) (x : Vec F S256x8576 .f32) (xo1 xo2 : Vec F S1x8576 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h2.read_unread, h3.read_unread, View.ld_unit_zero (S := S256x8576) hz,
    View.ld_unit_zero (S := S1x8576) hz]

/-- The first point clears the row of sums and adds the block's column sums to the cleared row. -/
theorem sum_first (c : Dev nD) (i : grid0.Coords) (a1 : Memref sig .tc .vmem S256x8576 .f32) (h1 : a1.IsWhole)
    (a2 : Memref sig .tc .vmem S1x8576 .f32) (h2 : a2.IsWhole) (a3 : Memref sig .tc .vmem S1x8576 .f32) (h3 : a3.IsWhole)
    (hc : cond0_0 i) (x : Vec F S256x8576 .f32) :
    out0_A_1 c i a1 h1 a2 h2 a3 h3 hc x = k0_pay4 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x8576) hz, View.readCov_unit_zero (S := S1x8576) _ hz]
  simp only [View.readAt_eq_ld, h1.read_unread, View.ld_unit_zero (S := S256x8576) hz, View.ld_unit_zero (S := S1x8576) hz]

/-- The first point clears the row of squares and adds the column sums of the block's squares to the cleared row. -/
theorem sq_first (c : Dev nD) (i : grid0.Coords) (a1 : Memref sig .tc .vmem S256x8576 .f32) (h1 : a1.IsWhole)
    (a2 : Memref sig .tc .vmem S1x8576 .f32) (h2 : a2.IsWhole) (a3 : Memref sig .tc .vmem S1x8576 .f32) (h3 : a3.IsWhole)
    (hc : cond0_0 i) (x : Vec F S256x8576 .f32) :
    out0_A_2 c i a1 h1 a2 h2 a3 h3 hc x = k0_pay5 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x8576) hz, View.readCov_unit_zero (S := S1x8576) _ hz]
  simp only [View.readAt_eq_ld, h1.read_unread, View.ld_unit_zero (S := S256x8576) hz, View.ld_unit_zero (S := S1x8576) hz]

end Cert.KernelIdeal.Stats

end
-- ==== Proof.StatsAt.lean ====
/-
  The first stage's arithmetic read at one column: adding a 256-row block into a running row adds, at column `q`,
  the sum over the block's rows of the block's entries at `q` (or of their squares); the cleared row is zero; and
  the block a grid point `t` sees is rows `256·t … 256·t + 255` of the [8192, 8576] array.
-/
import proofs.«116066_j39367670235562_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.KernelIdeal.Stats

open Cert.KernelIdeal Cert.KernelIdeal.Gen

/-- The lane reduction of a 256-row block over its rows, at column `q`: the sum over the rows. -/
theorem blocksum_apply (v : FVec Ideal S256x8576 .f32) (q : Fin 8576) :
    multiReduction .add [0] S8576 v 0x00000000#32 reduces_S256x8576_S8576 (.inl rfl) rfl (ix1 q)
      = ∑ r : Fin 256, v (ix2 r q) := by
  refine (Ideal.multiReduction_add_single v 0x00000000#32 reduces_S256x8576_S8576 (.inl rfl) rfl (ix1 q)).trans ?_
  refine Finset.sum_congr rfl fun r _ => congrArg v ?_
  funext a
  match a with
  | ⟨0, _⟩ => rfl
  | ⟨1, _⟩ => rfl

/-- Adding a block into the running row of sums, at column `q`. -/
theorem addBlock_apply (x : FVec Ideal S256x8576 .f32) (xo : FVec Ideal S1x8576 .f32) (q : Fin 8576) :
    k0_pay4 (F := Ideal) x xo (ix2 (0 : Fin 1) q) = xo (ix2 (0 : Fin 1) q) + ∑ r : Fin 256, x (ix2 r q) := by
  unfold k0_pay4 k0_pay3
  dsimp only
  refine (addf_apply _ _ _).trans ?_
  rw [shapeCast_self, shapeCast_self, shapeCast_a_1a_apply, blocksum_apply]

/-- Adding a block's squares into the running row of squares, at column `q`. -/
theorem addSquares_apply (x : FVec Ideal S256x8576 .f32) (xo : FVec Ideal S1x8576 .f32) (q : Fin 8576) :
    k0_pay5 (F := Ideal) x xo (ix2 (0 : Fin 1) q) = xo (ix2 (0 : Fin 1) q) + ∑ r : Fin 256, x (ix2 r q) * x (ix2 r q) := by
  unfold k0_pay5 k0_pay3
  dsimp only
  refine (addf_apply _ _ _).trans ?_
  rw [shapeCast_self, shapeCast_self, shapeCast_a_1a_apply, blocksum_apply]
  rfl

/-- The cleared rows are zero. -/
theorem cleared1_apply (j : S1x8576.Idx) : k0_pay1 (F := Ideal) j = 0 := Ideal.ofBits_zero_f32
theorem cleared2_apply (j : S1x8576.Idx) : k0_pay2 (F := Ideal) j = 0 := Ideal.ofBits_zero_f32

end Cert.KernelIdeal.Stats

end
-- ==== Proof.StatsFold.lean ====
/-
  The first stage's accumulation over the grid. After point `n` the two running rows hold, at column `q`, the sums
  of the entries (and of their squares) over rows `0 … 256·(n+1) - 1` of the [8192, 8576] array: the first point
  clears the rows and adds rows `0 … 255`, each later point adds its own 256 rows to what the point before left.
  After the last of the 32 points that is the sum over all 8192 rows.
-/
import proofs.«116066_j39367670235562_2_alg».proof.Proof.StatsPiece
import proofs.«116066_j39367670235562_2_alg».proof.Proof.StatsAt

noncomputable section

open scoped BigOperators
open Idealize.ShloMosaic Idealize.ShloMosaic.TcCoe Idealize.SL.Sem Idealize.ShloMosaic.ValueIdx

namespace Cert.KernelIdeal.Stats

open Cert.KernelIdeal Cert.KernelIdeal.Gen

/-! ## Partial sums over the first rows -/

/-- The sum of `g` over the rows below `K` (rows past the array's 8192 count for nothing). -/
def partialSum (g : Fin 8192 → EReal) (K : ℕ) : EReal :=
  ∑ k ∈ Finset.range K, if h : k < 8192 then g ⟨k, h⟩ else 0

theorem partialSum_zero (g : Fin 8192 → EReal) : partialSum g 0 = 0 := by
  unfold partialSum; rw [Finset.range_zero, Finset.sum_empty]

/-- One more block of 256 rows, when they are all inside the array. -/
theorem partialSum_block (g : Fin 8192 → EReal) (K : ℕ) (hK : K + 256 ≤ 8192) :
    partialSum g (K + 256) = partialSum g K + ∑ r : Fin 256, g ⟨K + r.val, by have := r.isLt; omega⟩ := by
  unfold partialSum
  rw [Finset.sum_range_add, ← Fin.sum_univ_eq_sum_range (fun r => if h : K + r < 8192 then g ⟨K + r, h⟩ else 0) 256]
  refine congrArg _ (Finset.sum_congr rfl fun r _ => ?_)
  exact dif_pos (by have := r.isLt; omega)

/-- All 8192 rows. -/
theorem partialSum_all (g : Fin 8192 → EReal) : partialSum g 8192 = ∑ n : Fin 8192, g n := by
  unfold partialSum
  rw [← Fin.sum_univ_eq_sum_range (fun k => if h : k < 8192 then g ⟨k, h⟩ else 0) 8192]
  exact Finset.sum_congr rfl fun n _ => dif_pos n.isLt

/-! ## The block a point sees -/

variable (V : (c : Dev nD) → (b : Ref sig .tc) → Buf (Elt Ideal) ((c : Thread nD τ).loc b))

/-- The first window's block index at point `t` is `(t, 0)`. -/
theorem blockIndex : ∀ t : Fin cfg0.N, win0_0.index t 0 = t.val ∧ win0_0.index t 1 = 0 :=
  (by decide +kernel : ∀ t : Fin grid0.N, win0_0.index t 0 = t.val ∧ win0_0.index t 1 = 0)

/-- Row `r` of the block at point `t` is row `256·t + r` of the array. -/
theorem block_apply (c : Dev nD) (t : Fin cfg0.N) (r : Fin 256) (q : Fin 8576) (k : Fin 8192) (hk : k.val = 256 * t.val + r.val) :
    (iblk0 (F := Ideal) V c 0 t : FVec Ideal S256x8576 .f32) (ix2 r q)
      = (V c main_v0 : FVec Ideal S8192x8576 .f32) (ix2 k q) := by
  unfold iblk0
  rw [View.read_apply]
  show V c main_v0 _ = V c main_v0 _
  refine congrArg (V c main_v0) (funext fun a => Fin.ext ?_)
  match a with
  | ⟨0, _⟩ =>
    show win0_0.index t 0 * 256 + 1 * r.val = k.val
    rw [(blockIndex t).1, hk]; omega
  | ⟨1, _⟩ =>
    show win0_0.index t 1 * 8576 + 1 * q.val = q.val
    rw [(blockIndex t).2]; omega

/-! ## The running rows after each point -/

/-- Column `q` of the [8192, 8576] array as the region finds it, as a function of the row. -/
abbrev col (c : Dev nD) (q : Fin 8576) : Fin 8192 → EReal :=
  fun k => (V c main_v0 : FVec Ideal S8192x8576 .f32) (ix2 k q)

/-- After point `n` the running rows hold, at column `q`, the sums over the first `256·(n+1)` rows of the
    column and of its squares: by induction on the point. -/
theorem rows_after (c : Dev nD) (q : Fin 8576) : ∀ (n : ℕ) (h : n < cfg0.N),
    (outsAt0 (F := Ideal) V c n h).1 (ix2 (0 : Fin 1) q) = partialSum (col V c q) (256 * n + 256)
    ∧ (outsAt0 (F := Ideal) V c n h).2 (ix2 (0 : Fin 1) q)
        = partialSum (fun k => col V c q k * col V c q k) (256 * n + 256)
  | 0, h => by
    rw [outsAt0_A V c ⟨0, h⟩ rfl]
    dsimp only
    rw [sum_first, sq_first, addBlock_apply, addSquares_apply, cleared1_apply, cleared2_apply, zero_add, zero_add,
      show 256 * 0 + 256 = 0 + 256 from rfl, partialSum_block _ 0 (by omega), partialSum_block _ 0 (by omega),
      partialSum_zero, partialSum_zero]
    constructor
    · refine Eq.trans (Finset.sum_congr rfl fun r _ => ?_) (zero_add _).symm
      exact block_apply V c ⟨0, h⟩ r q ⟨0 + r.val, _⟩ (by show 0 + r.val = 256 * 0 + r.val; omega)
    · refine Eq.trans (Finset.sum_congr rfl fun r _ => ?_) (zero_add _).symm
      rw [block_apply V c ⟨0, h⟩ r q ⟨0 + r.val, by have := r.isLt; omega⟩ (by show 0 + r.val = 256 * 0 + r.val; omega)]
  | n + 1, h => by
    have hN : cfg0.N = 32 := N_0
    have hB : ¬(⟨n + 1, h⟩ : Fin cfg0.N).val % 32 = 0 := by dsimp only; omega
    obtain ⟨ih1, ih2⟩ := rows_after c q n (Nat.lt_of_succ_lt h)
    rw [outsAt0_B V c ⟨n + 1, h⟩ hB]
    dsimp only
    rw [sum_later, sq_later, addBlock_apply, addSquares_apply,
      show 256 * (n + 1) + 256 = (256 * n + 256) + 256 from by omega,
      partialSum_block _ (256 * n + 256) (by omega), partialSum_block _ (256 * n + 256) (by omega)]
    constructor
    · show (outsAt0 V c n _).1 (ix2 (0 : Fin 1) q) + _ = _
      rw [ih1]
      refine congrArg _ (Finset.sum_congr rfl fun r _ => ?_)
      exact block_apply V c ⟨n + 1, h⟩ r q ⟨256 * n + 256 + r.val, _⟩ (by show 256 * n + 256 + r.val = 256 * (n + 1) + r.val; omega)
    · show (outsAt0 V c n _).2 (ix2 (0 : Fin 1) q) + _ = _
      rw [ih2]
      refine congrArg _ (Finset.sum_congr rfl fun r _ => ?_)
      rw [block_apply V c ⟨n + 1, h⟩ r q ⟨256 * n + 256 + r.val, by have := r.isLt; omega⟩ (by show 256 * n + 256 + r.val = 256 * (n + 1) + r.val; omega)]

end Cert.KernelIdeal.Stats

end
-- ==== Proof.StatsArr.lean ====
/-
  What the first stage leaves in its two result arrays. Each is one [1, 8576] block whose index never moves and
  which is written back once, after the last of the 32 points; the block is the whole array. So the arrays end
  holding the running rows after the last point: per column, the sum over all 8192 rows of the column, and of its
  squares.
-/
import proofs.«116066_j39367670235562_2_alg».proof.Proof.StatsFold

noncomputable section

open scoped BigOperators
open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen

variable (V : (c : Dev nD) → (b : Ref sig .tc) → Buf (Elt Ideal) ((c : Thread nD τ).loc b))

/-- The row of column sums and the row of column sums of squares, over all 8192 rows. -/
def sumRow (c : Dev nD) : FVec Ideal S1x8576 .f32 :=
  fun j => ∑ n : Fin 8192, col V c ⟨(j 1).val, idx2_lt1 j⟩ n
def sqRow (c : Dev nD) : FVec Ideal S1x8576 .f32 :=
  fun j => ∑ n : Fin 8192, col V c ⟨(j 1).val, idx2_lt1 j⟩ n * col V c ⟨(j 1).val, idx2_lt1 j⟩ n

/-- The last grid point. -/
abbrev lastPt : Fin cfg0.N := ⟨31, by rw [show cfg0.N = 32 from N_0]; decide⟩

/-- After the last point the running rows are the full sums. -/
theorem rows_last (c : Dev nD) :
    (outsAt0 (F := Ideal) V c lastPt.val lastPt.isLt).1 = sumRow V c
    ∧ (outsAt0 (F := Ideal) V c lastPt.val lastPt.isLt).2 = sqRow V c := by
  constructor
  · funext j
    obtain ⟨u, q, rfl⟩ : ∃ (u : Fin 1) (q : Fin 8576), j = ix2 u q := ⟨j 0, j 1, eq_ix2 j⟩
    obtain rfl : u = 0 := Subsingleton.elim u 0
    refine ((rows_after V c q 31 lastPt.isLt).1).trans ?_
    exact partialSum_all _
  · funext j
    obtain ⟨u, q, rfl⟩ : ∃ (u : Fin 1) (q : Fin 8576), j = ix2 u q := ⟨j 0, j 1, eq_ix2 j⟩
    obtain rfl : u = 0 := Subsingleton.elim u 0
    refine ((rows_after V c q 31 lastPt.isLt).2).trans ?_
    exact partialSum_all _

/-- The two result windows' block index is `(0, 0)` at every point. -/
theorem resultIndex : ∀ t : Fin cfg0.N, ∀ a : Fin 2, win0_1.index t a = 0 ∧ win0_2.index t a = 0 :=
  (by decide +kernel : ∀ t : Fin grid0.N, ∀ a : Fin 2, win0_1.index t a = 0 ∧ win0_2.index t a = 0)

/-- The one write-back of the row of sums writes the full sums. -/
theorem flushed_sum (c : Dev nD) (t : Fin cfg0.N) (hf : (cfg0.win 1).flush t = true) :
    (dat0 V c).flushed 1 t = ((cfg0.win 1).blk t).view.read (Elt Ideal) (sumRow V c) := by
  have hN : cfg0.N = 32 := N_0
  have h31 : t.val = 31 := by have := (flush0_1 t).mp hf; have := t.isLt; omega
  obtain rfl : t = lastPt := Fin.ext h31
  show (cfg0.win 1).cut (grid0.coords lastPt) ((dat0 V c).after 1 lastPt) = _
  rw [after0_1, (rows_last V c).1]
  have hz' : (fun a => win0_1.index lastPt a * main_v2_0.ty.shape.size a) = fun _ => 0 :=
    funext fun a => by rw [(resultIndex lastPt a).1, Nat.zero_mul]
  exact (Memref.read_access_unit_zero (Elt Ideal) main_v2_0 hz' (fun a => by rw [congrFun hz' a]; simp) (sumRow V c)).symm

/-- The one write-back of the row of squares writes the full sums of squares. -/
theorem flushed_sq (c : Dev nD) (t : Fin cfg0.N) (hf : (cfg0.win 2).flush t = true) :
    (dat0 V c).flushed 2 t = ((cfg0.win 2).blk t).view.read (Elt Ideal) (sqRow V c) := by
  have hN : cfg0.N = 32 := N_0
  have h31 : t.val = 31 := by have := (flush0_2 t).mp hf; have := t.isLt; omega
  obtain rfl : t = lastPt := Fin.ext h31
  show (cfg0.win 2).cut (grid0.coords lastPt) ((dat0 V c).after 2 lastPt) = _
  rw [after0_2, (rows_last V c).2]
  have hz' : (fun a => win0_2.index lastPt a * main_v2_1.ty.shape.size a) = fun _ => 0 :=
    funext fun a => by rw [(resultIndex lastPt a).2, Nat.zero_mul]
  exact (Memref.read_access_unit_zero (Elt Ideal) main_v2_1 hz' (fun a => by rw [congrFun hz' a]; simp) (sqRow V c)).symm

/-- The first result array ends holding the column sums. -/
theorem sums_final (c : Dev nD) : (dat0 V c).arrAt 1 cfg0.N = sumRow V c :=
  (dat0 V c).arrAt_eq_of_cover 1 (sumRow V c) (flushed_sum V c) fun i =>
    ⟨lastPt, (flush0_1 lastPt).mpr rfl, by
      show i ∈ ((View.whole main_v2_0).slice (win0_1.rect lastPt)).set
      rw [View.set_slice_whole, Rect.mem_set_unit]
      intro a
      have h0 : (i 0 : Nat) < 1 := (i 0).isLt
      have h1 : (i 1 : Nat) < 8576 := (i 1).isLt
      match a with
      | ⟨0, _⟩ =>
        show win0_1.index lastPt 0 * win0_1.size 0 ≤ (i 0 : Nat) ∧ (i 0 : Nat) < win0_1.index lastPt 0 * win0_1.size 0 + win0_1.xsize (grid0.coords lastPt) 0
        rw [(resultIndex lastPt 0).1, show win0_1.xsize (grid0.coords lastPt) 0 = 1 from by decide +kernel]; omega
      | ⟨1, _⟩ =>
        show win0_1.index lastPt 1 * win0_1.size 1 ≤ (i 1 : Nat) ∧ (i 1 : Nat) < win0_1.index lastPt 1 * win0_1.size 1 + win0_1.xsize (grid0.coords lastPt) 1
        rw [(resultIndex lastPt 1).1, show win0_1.xsize (grid0.coords lastPt) 1 = 8576 from by decide +kernel]; omega⟩

/-- The second result array ends holding the column sums of squares. -/
theorem squares_final (c : Dev nD) : (dat0 V c).arrAt 2 cfg0.N = sqRow V c :=
  (dat0 V c).arrAt_eq_of_cover 2 (sqRow V c) (flushed_sq V c) fun i =>
    ⟨lastPt, (flush0_2 lastPt).mpr rfl, by
      show i ∈ ((View.whole main_v2_1).slice (win0_2.rect lastPt)).set
      rw [View.set_slice_whole, Rect.mem_set_unit]
      intro a
      have h0 : (i 0 : Nat) < 1 := (i 0).isLt
      have h1 : (i 1 : Nat) < 8576 := (i 1).isLt
      match a with
      | ⟨0, _⟩ =>
        show win0_2.index lastPt 0 * win0_2.size 0 ≤ (i 0 : Nat) ∧ (i 0 : Nat) < win0_2.index lastPt 0 * win0_2.size 0 + win0_2.xsize (grid0.coords lastPt) 0
        rw [(resultIndex lastPt 0).2, show win0_2.xsize (grid0.coords lastPt) 0 = 1 from by decide +kernel]; omega
      | ⟨1, _⟩ =>
        show win0_2.index lastPt 1 * win0_2.size 1 ≤ (i 1 : Nat) ∧ (i 1 : Nat) < win0_2.index lastPt 1 * win0_2.size 1 + win0_2.xsize (grid0.coords lastPt) 1
        rw [(resultIndex lastPt 1).2, show win0_2.xsize (grid0.coords lastPt) 1 = 8576 from by decide +kernel]; omega⟩

end Cert.KernelIdeal.Stats

end
-- ==== Proof.Spec.lean ====
/-
  What both programs compute, as functions of the argument arrays over the extended reals.

  Per channel `d` the statistics are taken over the 8192 rows of the [16, 512, 8576] input read as [8192, 8576]
  (row `n` is the entry `(n / 512, n % 512)`). With `S₁ = ∑ₙ xₙ` and `S₂ = ∑ₙ xₙ²`:

  * one program takes the mean `μ = S₁ / N`, the variance as `max (S₂ / N - μ·μ) 0`, and returns
    `((((x - μ)·r)·γ + β) + noise·σ) + 0` with `r = rsqrt (variance + ε)`;
  * the other takes the same mean, the variance as `(∑ₙ (xₙ - μ)·(xₙ - μ)) / N`, and returns
    `(((x - μ)·r)·γ + β) + (noise·σ + 0)`.

  On real entries `(∑ₙ (xₙ - μ)²) / N = S₂ / N - μ²` (expand the square; `∑ₙ xₙ = N·μ`) and a mean of squares is
  nonnegative, so the maximum with zero changes nothing; the two groupings of the last sum agree in any
  commutative monoid. The float words are kept as words: `N` is the word of 8192.0, and only the zero word and
  `N` are ever evaluated.
-/
import Idealize.ShloMosaic.PureOps.Ideal
import Idealize.ShloMosaic.Lib.ValueIdx

noncomputable section

open scoped BigOperators

namespace Cert.Spec

open Idealize.ShloMosaic Idealize.ShloMosaic.ValueIdx

/-- The [16, 512, 8576] arrays' shape and the [8576] parameter vectors' shape. -/
abbrev A3 : Shape := ⟨3, ![16, 512, 8576]⟩
abbrev A1 : Shape := ⟨1, ![8576]⟩

/-- Row `n` of the [8192, 8576] reading, channel `d`, as an index of the [16, 512, 8576] array. -/
def rowIdx (n : Fin 8192) (d : Fin 8576) : A3.Idx :=
  ix3 (⟨n.val / 512, by have := n.isLt; omega⟩ : Fin 16) (⟨n.val % 512, Nat.mod_lt _ (by norm_num)⟩ : Fin 512) d

/-- The words of the constants: the row count 8192.0, ε, σ and +0.0. -/
def nW : EReal := Ideal.ofBits .f32 0x46000000#32
def epsW : EReal := Ideal.ofBits .f32 0x3727C5AC#32
def sigW : EReal := Ideal.ofBits .f32 0x3D4CCCCD#32
def zeroW : EReal := Ideal.ofBits .f32 0x00000000#32

/-- The sum of a column: channel `d` of `f` over the 8192 rows. -/
def colSum (f : A3.Idx → EReal) (d : Fin 8576) : EReal := ∑ n : Fin 8192, f (rowIdx n d)

/-- The mean of channel `d`. -/
def mean (x : A3.Idx → EReal) (d : Fin 8576) : EReal := Ideal.div (colSum x d) nW

/-- The variance as the mean of the squares less the squared mean, kept nonnegative. -/
def varClamped (x : A3.Idx → EReal) (d : Fin 8576) : EReal :=
  max (Ideal.div (colSum (fun i => x i * x i) d) nW - mean x d * mean x d) zeroW

/-- The variance as the mean of the squared deviations. -/
def varDev (x : A3.Idx → EReal) (d : Fin 8576) : EReal :=
  Ideal.div (colSum (fun i => (x i - mean x (i 2)) * (x i - mean x (i 2))) d) nW

/-- The result with the clamped variance and the last sum grouped to the left. -/
def kernelForm (x noise : A3.Idx → EReal) (gamma beta : A1.Idx → EReal) : A3.Idx → EReal := fun i =>
  ((((x i - mean x (i 2)) * Ideal.rsqrt (varClamped x (i 2) + epsW)) * gamma (ix1 (i 2)) + beta (ix1 (i 2)))
    + noise i * sigW) + zeroW

/-- The result with the variance of deviations and the last sum grouped to the right. -/
def refForm (x noise : A3.Idx → EReal) (gamma beta : A1.Idx → EReal) : A3.Idx → EReal := fun i =>
  (((x i - mean x (i 2)) * Ideal.rsqrt (varDev x (i 2) + epsW)) * gamma (ix1 (i 2)) + beta (ix1 (i 2)))
    + (noise i * sigW + zeroW)

/-! ## The second stage on the [8192, 8576] reading -/

/-- The [8192, 8576] reading's shape and the [1, 8576] parameter rows' shape. -/
abbrev R2 : Shape := ⟨2, ![8192, 8576]⟩
abbrev P2 : Shape := ⟨2, ![1, 8576]⟩

/-- The one row of a [1, 8576] array at the column of `j`. -/
def colOf (j : R2.Idx) : P2.Idx := ix2 (0 : Fin 1) (⟨(j 1).val, idx2_lt1 j⟩ : Fin 8576)

/-- The normalizing stage as one function of its six operands: the two [8192, 8576] arrays entry by entry, the four
    [1, 8576] rows (scale, shift, mean, reciprocal deviation) at the entry's column. -/
def normArr (X Nz : R2.Idx → EReal) (G B M R : P2.Idx → EReal) : R2.Idx → EReal := fun j =>
  ((((X j - M (colOf j)) * R (colOf j)) * G (colOf j) + B (colOf j)) + Nz j * sigW) + zeroW

end Cert.Spec

end
-- ==== Proof.NormValue.lean ====
/-
  The value of the second kernel region — the normalizing pass — as one function of its six operand arrays.

  The pass runs over 64 grid points. At point `t` it reads rows `128 t … 128 t + 127` of the two [8192, 8576]
  operands and the whole of the four [1, 8576] parameter rows (scale, shift, mean, reciprocal deviation), and
  writes rows `128 t … 128 t + 127` of the result: at row `p` of the block and column `q`,

      ((((x − μ_q) · r_q) · γ_q + β_q) + noise · σ) + 0,

  with `x`, `noise` the entries `(128 t + p, q)` of the two large operands and `μ_q, r_q, γ_q, β_q` the entries
  `(0, q)` of the rows. That is block `t` of `Cert.Spec.normArr` of the six arrays. The 64 blocks of 128 rows
  tile the 8192 rows (row `n` lies in block `n / 128`), so after the run the result array is `normArr` of the
  operands, whatever the operands hold when the region is entered.

  In order: the body's result at an entry of the block (`out_at`); the printed block indices over the grid
  (`idx_facts`); `normArr` at an entry of column `q` (`normArr_at`); each operand's block at a point as entries of
  its array (`rows0_at`, `rows1_at`, `row2_at` … `row5_at`); what a point writes back (`flushed_eq`); the blocks
  cover the array (`mem_blk`, `cover`); the array after the run (`norm_arr`).
-/
import proofs.«116066_j39367670235562_2_alg».proof.Proof.Gen.KernelIdeal.Frame
import proofs.«116066_j39367670235562_2_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.NormValue

open Cert.KernelIdeal Cert.KernelIdeal.Gen

/-- The zero offsets of a whole-buffer access, however they are spelt. -/
theorem zeros2 : (![0, 0] : Fin 2 → Nat) = fun _ => 0 := funext fun a => by fin_cases a <;> rfl

/-- What the body leaves in the output block at row `p`, column `q`: the entry of the first block less the mean of
    its column, times the column's reciprocal deviation, times its scale, plus its shift, plus σ times the entry of
    the second block, plus the zero word — the four parameter rows read at their one row. -/
theorem out_at (x0 x1 : Vec Ideal S128x8576 .f32) (x2 x3 x4 x5 : Vec Ideal S1x8576 .f32) (p : Fin 128) (q : Fin 8576) :
    out1_6 (F := Ideal) x0 x1 x2 x3 x4 x5 (ix2 p q)
      = ((((x0 (ix2 p q) - x4 (ix2 (0 : Fin 1) q)) * x5 (ix2 (0 : Fin 1) q)) * x2 (ix2 (0 : Fin 1) q) + x3 (ix2 (0 : Fin 1) q))
          + x1 (ix2 p q) * Cert.Spec.sigW) + Cert.Spec.zeroW := by
  unfold out1_6
  rw [View.canon_unit_zero zeros2]
  simp only [View.ld_unit_zero (S := S128x8576) zeros2, View.ld_unit_zero (S := S1x8576) zeros2]
  unfold k1_pay1
  simp only [shapeCast_self]
  simp only [addf_apply, mulf_apply, subf_apply, broadcast_apply, broadcastTo_1b_ab_apply, Ideal.ofBits_def]
  rfl

/-- The printed index maps over the 64 grid points: the three [128, 8576] windows sit at block row `t`, block column 0;
    the four parameter rows always at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The normalizing stage at an entry of column `q`: the four parameter rows are read at `(0, q)`. -/
theorem normArr_at (X Nz : S8192x8576.Idx → EReal) (G B M R : S1x8576.Idx → EReal) (k : S8192x8576.Idx) (q : Fin 8576)
    (hk1 : (k 1).val = q.val) :
    Cert.Spec.normArr X Nz G B M R k
      = ((((X k - M (ix2 (0 : Fin 1) q)) * R (ix2 (0 : Fin 1) q)) * G (ix2 (0 : Fin 1) q) + B (ix2 (0 : Fin 1) q))
          + Nz k * Cert.Spec.sigW) + Cert.Spec.zeroW := by
  have hc : Cert.Spec.colOf k = ix2 (0 : Fin 1) q := by
    unfold Cert.Spec.colOf
    rw [show (⟨(k 1).val, idx2_lt1 k⟩ : Fin 8576) = q from Fin.ext hk1]
  unfold Cert.Spec.normArr
  rw [hc]

variable (V : (c : Dev nD) → (b : Ref sig .tc) → Buf (Elt Ideal) ((c : Thread nD τ).loc b))

/-- Block `t` of the first [8192, 8576] operand holds rows `128 t … 128 t + 127` of the array. -/
theorem rows0_at (c : Dev nD) (t : Fin cfg1.N) (p : Fin 128) (q : Fin 8576) (k : S8192x8576.Idx)
    (hk0 : (k 0).val = 128 * t.val + p.val) (hk1 : (k 1).val = q.val) :
    (iblk1 (F := Ideal) V c 0 t : Vec Ideal S128x8576 .f32) (ix2 p q) = (V c main_v0 : S8192x8576.Idx → EReal) k := by
  obtain ⟨e0, e1, -⟩ := idx_facts t
  unfold iblk1
  rw [View.read_apply]
  show V c main_v0 _ = V c main_v0 _
  refine congrArg _ ?_
  funext a; apply Fin.ext
  match a with
  | ⟨0, _⟩ => show win1_0.index t 0 * 128 + 1 * p.val = (k 0).val; rw [e0, hk0]; omega
  | ⟨1, _⟩ => show win1_0.index t 1 * 8576 + 1 * q.val = (k 1).val; rw [e1, hk1]; omega

/-- Block `t` of the second [8192, 8576] operand holds the same rows of its array. -/
theorem rows1_at (c : Dev nD) (t : Fin cfg1.N) (p : Fin 128) (q : Fin 8576) (k : S8192x8576.Idx)
    (hk0 : (k 0).val = 128 * t.val + p.val) (hk1 : (k 1).val = q.val) :
    (iblk1 (F := Ideal) V c 1 t : Vec Ideal S128x8576 .f32) (ix2 p q) = (V c main_v1 : S8192x8576.Idx → EReal) k := by
  obtain ⟨-, -, e0, e1, -⟩ := idx_facts t
  unfold iblk1
  rw [View.read_apply]
  show V c main_v1 _ = V c main_v1 _
  refine congrArg _ ?_
  funext a; apply Fin.ext
  match a with
  | ⟨0, _⟩ => show win1_1.index t 0 * 128 + 1 * p.val = (k 0).val; rw [e0, hk0]; omega
  | ⟨1, _⟩ => show win1_1.index t 1 * 8576 + 1 * q.val = (k 1).val; rw [e1, hk1]; omega

/-- Each parameter row's block, at every point, is the whole [1, 8576] array. -/
theorem row2_at (c : Dev nD) (t : Fin cfg1.N) (q : Fin 8576) :
    (iblk1 (F := Ideal) V c 2 t : Vec Ideal S1x8576 .f32) (ix2 (0 : Fin 1) q) = (V c main_v14 : S1x8576.Idx → EReal) (ix2 (0 : Fin 1) q) := by
  obtain ⟨-, -, -, -, e0, e1, -⟩ := idx_facts t
  unfold iblk1
  rw [View.read_apply]
  show V c main_v14 _ = V c main_v14 _
  refine congrArg _ ?_
  funext a; apply Fin.ext
  match a with
  | ⟨0, _⟩ => show win1_2.index t 0 * 1 + 1 * 0 = 0; rw [e0]
  | ⟨1, _⟩ => show win1_2.index t 1 * 8576 + 1 * q.val = q.val; rw [e1]; omega

theorem row3_at (c : Dev nD) (t : Fin cfg1.N) (q : Fin 8576) :
    (iblk1 (F := Ideal) V c 3 t : Vec Ideal S1x8576 .f32) (ix2 (0 : Fin 1) q) = (V c main_v15 : S1x8576.Idx → EReal) (ix2 (0 : Fin 1) q) := by
  obtain ⟨-, -, -, -, -, -, e0, e1, -⟩ := idx_facts t
  unfold iblk1
  rw [View.read_apply]
  show V c main_v15 _ = V c main_v15 _
  refine congrArg _ ?_
  funext a; apply Fin.ext
  match a with
  | ⟨0, _⟩ => show win1_3.index t 0 * 1 + 1 * 0 = 0; rw [e0]
  | ⟨1, _⟩ => show win1_3.index t 1 * 8576 + 1 * q.val = q.val; rw [e1]; omega

theorem row4_at (c : Dev nD) (t : Fin cfg1.N) (q : Fin 8576) :
    (iblk1 (F := Ideal) V c 4 t : Vec Ideal S1x8576 .f32) (ix2 (0 : Fin 1) q) = (V c main_v4 : S1x8576.Idx → EReal) (ix2 (0 : Fin 1) q) := by
  obtain ⟨-, -, -, -, -, -, -, -, e0, e1, -⟩ := idx_facts t
  unfold iblk1
  rw [View.read_apply]
  show V c main_v4 _ = V c main_v4 _
  refine congrArg _ ?_
  funext a; apply Fin.ext
  match a with
  | ⟨0, _⟩ => show win1_4.index t 0 * 1 + 1 * 0 = 0; rw [e0]
  | ⟨1, _⟩ => show win1_4.index t 1 * 8576 + 1 * q.val = q.val; rw [e1]; omega

theorem row5_at (c : Dev nD) (t : Fin cfg1.N) (q : Fin 8576) :
    (iblk1 (F := Ideal) V c 5 t : Vec Ideal S1x8576 .f32) (ix2 (0 : Fin 1) q) = (V c main_v13 : S1x8576.Idx → EReal) (ix2 (0 : Fin 1) q) := by
  obtain ⟨-, -, -, -, -, -, -, -, -, -, e0, e1, -⟩ := idx_facts t
  unfold iblk1
  rw [View.read_apply]
  show V c main_v13 _ = V c main_v13 _
  refine congrArg _ ?_
  funext a; apply Fin.ext
  match a with
  | ⟨0, _⟩ => show win1_5.index t 0 * 1 + 1 * 0 = 0; rw [e0]
  | ⟨1, _⟩ => show win1_5.index t 1 * 8576 + 1 * q.val = q.val; rw [e1]; omega

/-- WHAT POINT `t` WRITES BACK is block `t` of the normalizing stage of the six operand arrays as the region finds them:
    entry `(p, q)` of the block is entry `(128 t + p, q)` of the two large operands and entry `(0, q)` of the four rows. -/
theorem flushed_eq (c : Dev nD) (t : Fin cfg1.N) :
    (dat1 (F := Ideal) V c).flushed 6 t
      = ((cfg1.win 6).blk t).view.read (Elt Ideal)
          (Cert.Spec.normArr (V c main_v0) (V c main_v1) (V c main_v14) (V c main_v15) (V c main_v4) (V c main_v13)) := by
  show (cfg1.win 6).cut (grid1.coords t) ((dat1 V c).after 6 t) = _
  rw [after1_6]
  funext y
  obtain ⟨p, q, rfl⟩ : ∃ (p : Fin 128) (q : Fin 8576), y = ix2 p q := ⟨y 0, y 1, eq_ix2 y⟩
  show out1_6 (iblk1 V c 0 t) (iblk1 V c 1 t) (iblk1 V c 2 t) (iblk1 V c 3 t) (iblk1 V c 4 t) (iblk1 V c 5 t) (ix2 p q)
    = Cert.Spec.normArr (V c main_v0) (V c main_v1) (V c main_v14) (V c main_v15) (V c main_v4) (V c main_v13)
        (((cfg1.win 6).blk t).view.emb (ix2 p q))
  obtain ⟨-, -, -, -, -, -, -, -, -, -, -, -, e0, e1⟩ := idx_facts t
  have hk0 : ((((cfg1.win 6).blk t).view.emb (ix2 p q) : S8192x8576.Idx) 0).val = 128 * t.val + p.val := by
    show win1_6.index t 0 * 128 + 1 * p.val = _; rw [e0]; omega
  have hk1 : ((((cfg1.win 6).blk t).view.emb (ix2 p q) : S8192x8576.Idx) 1).val = q.val := by
    show win1_6.index t 1 * 8576 + 1 * q.val = _; rw [e1]; omega
  refine (out_at (iblk1 V c 0 t) (iblk1 V c 1 t) (iblk1 V c 2 t) (iblk1 V c 3 t) (iblk1 V c 4 t) (iblk1 V c 5 t) p q).trans ?_
  refine Eq.trans ?_ (normArr_at _ _ _ _ _ _ _ q hk1).symm
  rw [rows0_at V c t p q _ hk0 hk1, rows1_at V c t p q _ hk0 hk1, row2_at V c t q, row3_at V c t q, row4_at V c t q, row5_at V c t q]

/-- An index of the array is in point `t`'s block iff each coordinate is in the block's range on its axis. -/
theorem mem_blk (t : Fin cfg1.N) (i : S8192x8576.Idx) :
    i ∈ ((cfg1.win 6).blk t).view.set ↔ ∀ a : Fin 2, win1_6.index t a * S128x8576.size a ≤ (i a).val
      ∧ (i a).val < win1_6.index t a * S128x8576.size a + S128x8576.size a := by
  show i ∈ ((View.whole main_v16).slice (win1_6.rect t)).set ↔ _
  rw [View.set_slice_whole, Rect.mem_set_unit]
  exact Iff.rfl

/-- The 64 blocks of 128 rows tile the 8192 rows: row `n` lies in the block of point `n / 128`. -/
theorem cover (i : S8192x8576.Idx) :
    ∃ t : Fin cfg1.N, (cfg1.win 6).flush t = true ∧ i ∈ ((cfg1.win 6).blk t).view.set := by
  have hN : cfg1.N = 64 := N_1
  have hi0 : (i 0).val < 8192 := (i 0).isLt
  have hi1 : (i 1).val < 8576 := (i 1).isLt
  obtain ⟨t, ht⟩ : ∃ t : Fin cfg1.N, t.val = (i 0).val / 128 := ⟨⟨(i 0).val / 128, by omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t 0 * 128 ≤ (i 0).val ∧ (i 0).val < win1_6.index t 0 * 128 + 128
    rw [e0, ht]; omega
  | ⟨1, _⟩ =>
    show win1_6.index t 1 * 8576 ≤ (i 1).val ∧ (i 1).val < win1_6.index t 1 * 8576 + 8576
    rw [e1]; omega

/-- THE OUTPUT ARRAY after the second region's run is the normalizing stage of the six operand arrays as the region
    finds them: every point writes its block of that one function, and the blocks cover the array. -/
theorem norm_arr (c : Dev nD) :
    (dat1 (F := Ideal) V c).arrAt 6 cfg1.N
      = Cert.Spec.normArr (V c main_v0) (V c main_v1) (V c main_v14) (V c main_v15) (V c main_v4) (V c main_v13) :=
  (dat1 V c).arrAt_eq_of_cover 6 _ (fun t _ => flushed_eq V c t) cover

end Cert.KernelIdeal.NormValue

end
-- ==== Proof.HostSide.lean ====
/-
  The buffers between the stages, traced back to the arguments.

  The first stage is entered with `x` read as [8192, 8576]. The host then takes, from the two rows of sums the
  first stage leaves, the mean row `S₁ / N` and the reciprocal-deviation row
  `rsqrt (max (S₂ / N - mean·mean) 0 + ε)`, and reads the scale and shift vectors as [1, 8576] rows. The second stage
  is entered with those four rows and with `x` and the noise read as [8192, 8576]; the program's result is the second
  stage's array read back as [16, 512, 8576].
-/
import proofs.«116066_j39367670235562_2_alg».proof.Proof.Gen.KernelIdeal.Frame
import proofs.«116066_j39367670235562_2_alg».proof.Proof.StatsArr
import proofs.«116066_j39367670235562_2_alg».proof.Proof.NormValue
import Idealize.ShloMosaic.Lib.StableHlo.Run
import Idealize.ShloMosaic.Lib.Pipeline.Value
import Idealize.ShloMosaic.PureOps.Ideal

noncomputable section

open Idealize.ShloMosaic Idealize.ShloMosaic.TcCoe Idealize.SL.Sem
open Idealize.ShloMosaic.Pipeline (Dat)

namespace Cert.KernelIdeal.HostSide

open Cert.KernelIdeal Cert.KernelIdeal.Gen

variable (m : (ℓ : Loc nD τ sig) → Buf (Elt Ideal) ℓ) (ρ : Dev nD → PrngReg)

/-- A constant word as a [1, 8576] row. -/
def rowConst (w : BitVec 32) : FVec Ideal S1x8576 .f32 :=
  broadcastInDim S1x8576 ![] bcast_S_S1x8576 (constant (F := Ideal) S_ .f32 w)

/-- The mean row from the row of sums. -/
def meanRow (s1 : FVec Ideal S1x8576 .f32) : FVec Ideal S1x8576 .f32 :=
  Host.divf (F := Ideal) s1 (rowConst 0x46000000#32)

/-- The reciprocal-deviation row from the rows of sums and of sums of squares. -/
def rdevRow (s1 s2 : FVec Ideal S1x8576 .f32) : FVec Ideal S1x8576 .f32 :=
  Host.rsqrt (F := Ideal) (addf (maximumf (subf (Host.divf (F := Ideal) s2 (rowConst 0x46000000#32)) (mulf (meanRow s1) (meanRow s1)))
    (rowConst 0x00000000#32)) (rowConst 0x3727C5AC#32))

/-! ## The first stage's entry -/

/-- The first stage is entered with `x` read as [8192, 8576]. -/
theorem first_x (c : Dev nD) : V1 m ρ c main_v0
    = shapeCast S8192x8576 (m ((c : Thread nD τ).loc main_arg0)) shapeCasts_S16x512x8576_S8192x8576 := by
  show StableHlo.after hostOps0 (W0 m ρ c) (Proc.devRef .tc main_v0) = _
  after_results
  rfl

/-! ## The second stage's entry -/

/-- `x` read as [8192, 8576] passes through the first stage (which only reads it) and the host operations between. -/
theorem second_x (c : Dev nD) : V3 m ρ c main_v0
    = shapeCast S8192x8576 (m ((c : Thread nD τ).loc main_arg0)) shapeCasts_S16x512x8576_S8192x8576 := by
  have e : V3 m ρ c main_v0 = W2 m ρ c (Proc.devRef .tc main_v0) := by
    show StableHlo.after hostOps1 (W2 m ρ c) (Proc.devRef .tc main_v0) = _
    after_results
  rw [e]
  refine (W2_arr m ρ c 0).trans ?_
  rw [Dat.arrAt_in _ 0 rfl]
  exact (A_eq0 (V1 m ρ) c 0).trans (first_x m ρ c)

/-- The noise read as [8192, 8576]. -/
theorem second_noise (c : Dev nD) : V3 m ρ c main_v1
    = shapeCast S8192x8576 (m ((c : Thread nD τ).loc main_arg1)) shapeCasts_S16x512x8576_S8192x8576 := by
  have e : V3 m ρ c main_v1 = W2 m ρ c (Proc.devRef .tc main_v1) := by
    show StableHlo.after hostOps1 (W2 m ρ c) (Proc.devRef .tc main_v1) = _
    after_results
  rw [e, W2_of_ne m ρ c main_v1 (by decide)]
  show StableHlo.after hostOps0 (W0 m ρ c) (Proc.devRef .tc main_v1) = _
  after_results
  rfl

/-- The scale vector read as a [1, 8576] row. -/
theorem second_gamma (c : Dev nD) : V3 m ρ c main_v14
    = shapeCast S1x8576 (m ((c : Thread nD τ).loc main_arg2)) shapeCasts_S8576_S1x8576 := by
  have e : V3 m ρ c main_v14 = shapeCast S1x8576 (W2 m ρ c (Proc.devRef .tc main_arg2)) shapeCasts_S8576_S1x8576 := by
    show StableHlo.after hostOps1 (W2 m ρ c) (Proc.devRef .tc main_v14) = _
    after_results
    rfl
  rw [e, W2_of_ne m ρ c main_arg2 (by decide)]
  refine congrArg (fun y => shapeCast S1x8576 y shapeCasts_S8576_S1x8576) ?_
  show StableHlo.after hostOps0 (W0 m ρ c) (Proc.devRef .tc main_arg2) = _
  after_results

/-- The shift vector read as a [1, 8576] row. -/
theorem second_beta (c : Dev nD) : V3 m ρ c main_v15
    = shapeCast S1x8576 (m ((c : Thread nD τ).loc main_arg3)) shapeCasts_S8576_S1x8576 := by
  have e : V3 m ρ c main_v15 = shapeCast S1x8576 (W2 m ρ c (Proc.devRef .tc main_arg3)) shapeCasts_S8576_S1x8576 := by
    show StableHlo.after hostOps1 (W2 m ρ c) (Proc.devRef .tc main_v15) = _
    after_results
    rfl
  rw [e, W2_of_ne m ρ c main_arg3 (by decide)]
  refine congrArg (fun y => shapeCast S1x8576 y shapeCasts_S8576_S1x8576) ?_
  show StableHlo.after hostOps0 (W0 m ρ c) (Proc.devRef .tc main_arg3) = _
  after_results

/-- The mean row, from the first stage's row of sums. -/
theorem second_mean (c : Dev nD) : V3 m ρ c main_v4 = meanRow (Stats.sumRow (V1 m ρ) c) := by
  have e : V3 m ρ c main_v4 = meanRow (W2 m ρ c (Proc.devRef .tc main_v2_0)) := by
    show StableHlo.after hostOps1 (W2 m ρ c) (Proc.devRef .tc main_v4) = _
    after_results
    rfl
  rw [e]
  refine congrArg meanRow ?_
  exact (W2_arr m ρ c 1).trans (Stats.sums_final (V1 m ρ) c)

/-- The reciprocal-deviation row, from the first stage's two rows. -/
theorem second_rdev (c : Dev nD) : V3 m ρ c main_v13
    = rdevRow (Stats.sumRow (V1 m ρ) c) (Stats.sqRow (V1 m ρ) c) := by
  have e : V3 m ρ c main_v13
      = rdevRow (W2 m ρ c (Proc.devRef .tc main_v2_0)) (W2 m ρ c (Proc.devRef .tc main_v2_1)) := by
    show StableHlo.after hostOps1 (W2 m ρ c) (Proc.devRef .tc main_v13) = _
    after_results
    rfl
  rw [e]
  exact congrArg₂ rdevRow ((W2_arr m ρ c 1).trans (Stats.sums_final (V1 m ρ) c))
    ((W2_arr m ρ c 2).trans (Stats.squares_final (V1 m ρ) c))

/-! ## The result -/

/-- The result array: the second stage's array, as a function of its entry buffers, read back as [16, 512, 8576]. -/
theorem result_arr (c : Dev nD) : W5 m ρ c (Proc.devRef .tc main_v17)
    = shapeCast S16x512x8576 (Cert.Spec.normArr (V3 m ρ c main_v0) (V3 m ρ c main_v1) (V3 m ρ c main_v14) (V3 m ρ c main_v15)
        (V3 m ρ c main_v4) (V3 m ρ c main_v13)) shapeCasts_S8192x8576_S16x512x8576 := by
  have e : W5 m ρ c (Proc.devRef .tc main_v17)
      = shapeCast S16x512x8576 (W4 m ρ c (Proc.devRef .tc main_v16)) shapeCasts_S8192x8576_S16x512x8576 := by
    show StableHlo.after hostOps2 (W4 m ρ c) (Proc.devRef .tc main_v17) = _
    after_results
    rfl
  rw [e]
  refine congrArg (fun y => shapeCast S16x512x8576 y shapeCasts_S8192x8576_S16x512x8576) ?_
  exact (W4_arr m ρ c 6).trans (NormValue.norm_arr (V3 m ρ) c)

end Cert.KernelIdeal.HostSide

end
-- ==== Proof.KernelValue.lean ====
/-
  The two-stage program's result is `kernelForm` of the four arguments.

  At entry `(b, s, d)` the result array reads the second stage's [8192, 8576] array at row `512·b + s`, column `d`;
  there `x` and the noise read back to the arguments' entry `(b, s, d)`, the scale and shift rows to the vectors'
  entry `d`, the mean row to `(∑ₙ x (n, d)) / N` and the reciprocal-deviation row to
  `rsqrt (max ((∑ₙ x (n, d)²) / N - mean²) 0 + ε)`, the sums running over the 8192 rows of the [8192, 8576] reading.
-/
import proofs.«116066_j39367670235562_2_alg».proof.Proof.HostSide
import proofs.«116066_j39367670235562_2_alg».proof.Proof.Spec
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx

namespace Cert.KernelIdeal.HostSide

open Cert.KernelIdeal Cert.KernelIdeal.Gen Cert.Spec

/-! ## The layout changes read at an index -/

/-- The [16, 512, 8576] array read as [8192, 8576]: row `n`, column `d` is the entry `rowIdx n d`. -/
theorem flat_apply (X : FVec Ideal S16x512x8576 .f32) (n : Fin 8192) (d : Fin 8576) :
    shapeCast S8192x8576 X shapeCasts_S16x512x8576_S8192x8576 (ix2 n d) = X (rowIdx n d) := by
  refine shapeCast_apply X _ (ix2 n d) (rowIdx n d) ?_
  rw [Shape.rowMajor_val_three, Shape.rowMajor_val_two]
  show ((n.val / 512) * 512 + n.val % 512) * 8576 + d.val = n.val * 8576 + d.val
  have := Nat.div_add_mod n.val 512
  omega

/-- The [8192, 8576] array read back as [16, 512, 8576]: entry `(b, s, d)` is row `512·b + s`, column `d`. -/
theorem unflat_apply (Y : FVec Ideal S8192x8576 .f32) (b : Fin 16) (s : Fin 512) (d : Fin 8576) (n : Fin 8192)
    (hn : n.val = 512 * b.val + s.val) :
    shapeCast S16x512x8576 Y shapeCasts_S8192x8576_S16x512x8576 (ix3 b s d) = Y (ix2 n d) := by
  refine shapeCast_apply Y _ (ix3 b s d) (ix2 n d) ?_
  rw [Shape.rowMajor_val_three, Shape.rowMajor_val_two]
  show n.val * 8576 + d.val = (b.val * 512 + s.val) * 8576 + d.val
  rw [hn]; ring

/-- That row's entry of the [16, 512, 8576] array is `(b, s, d)` again. -/
theorem rowIdx_of (b : Fin 16) (s : Fin 512) (d : Fin 8576) (n : Fin 8192) (hn : n.val = 512 * b.val + s.val) :
    rowIdx n d = ix3 b s d := by
  unfold rowIdx
  have hb : n.val / 512 = b.val := by have := s.isLt; omega
  have hs : n.val % 512 = s.val := by have := s.isLt; omega
  funext a
  match a with
  | ⟨0, _⟩ => exact Fin.ext hb
  | ⟨1, _⟩ => exact Fin.ext hs
  | ⟨2, _⟩ => rfl

/-- A constant row at any index is its word. -/
theorem rowConst_apply (w : BitVec 32) (j : S1x8576.Idx) : rowConst w j = Ideal.ofBits .f32 w := by
  unfold rowConst
  exact broadcastInDim_apply _ bcast_S_S1x8576 _ j (fun a => a.elim0) (fun a => a.elim0)

/-! ## The statistics rows read at a column -/

variable (m : (ℓ : Loc nD τ sig) → Buf (Elt Ideal) ℓ) (ρ : Dev nD → PrngReg)

/-- The first argument as an array of extended reals. -/
abbrev xOf (c : Dev nD) : A3.Idx → EReal := m ((c : Thread nD τ).loc main_arg0)

/-- Column `d` of the [8192, 8576] array the first stage is entered with, at row `n`: `x` at `rowIdx n d`. -/
theorem col_apply (c : Dev nD) (d : Fin 8576) (n : Fin 8192) :
    Stats.col (V1 m ρ) c d n = xOf m c (rowIdx n d) := by
  show (V1 m ρ c main_v0 : FVec Ideal S8192x8576 .f32) (ix2 n d) = _
  rw [first_x]
  exact flat_apply _ n d

/-- The first stage's row of sums at column `d`: the column sum of `x`. -/
theorem sumRow_apply (c : Dev nD) (d : Fin 8576) :
    Stats.sumRow (V1 m ρ) c (ix2 (0 : Fin 1) d) = colSum (xOf m c) d := by
  unfold Stats.sumRow colSum
  exact Finset.sum_congr rfl fun n _ => col_apply m ρ c d n

/-- The row of sums of squares at column `d`: the column sum of `x·x`. -/
theorem sqRow_apply (c : Dev nD) (d : Fin 8576) :
    Stats.sqRow (V1 m ρ) c (ix2 (0 : Fin 1) d) = colSum (fun i => xOf m c i * xOf m c i) d := by
  unfold Stats.sqRow colSum
  exact Finset.sum_congr rfl fun n _ => congrArg₂ (· * ·) (col_apply m ρ c d n) (col_apply m ρ c d n)

/-- The mean row at column `d`. -/
theorem meanRow_apply (s1 : FVec Ideal S1x8576 .f32) (d : Fin 8576) :
    meanRow s1 (ix2 (0 : Fin 1) d) = Ideal.div (s1 (ix2 (0 : Fin 1) d)) nW := by
  unfold meanRow
  show Ideal.div (s1 (ix2 (0 : Fin 1) d)) (rowConst 0x46000000#32 (ix2 (0 : Fin 1) d)) = _
  rw [rowConst_apply]; rfl

/-- The reciprocal-deviation row at column `d`. -/
theorem rdevRow_apply (s1 s2 : FVec Ideal S1x8576 .f32) (d : Fin 8576) :
    rdevRow s1 s2 (ix2 (0 : Fin 1) d)
      = Ideal.rsqrt (max (Ideal.div (s2 (ix2 (0 : Fin 1) d)) nW - meanRow s1 (ix2 (0 : Fin 1) d) * meanRow s1 (ix2 (0 : Fin 1) d)) zeroW + epsW) := by
  unfold rdevRow
  show Ideal.rsqrt (max (Ideal.div (s2 (ix2 (0 : Fin 1) d)) (rowConst 0x46000000#32 (ix2 (0 : Fin 1) d))
      - meanRow s1 (ix2 (0 : Fin 1) d) * meanRow s1 (ix2 (0 : Fin 1) d)) (rowConst 0x00000000#32 (ix2 (0 : Fin 1) d))
      + rowConst 0x3727C5AC#32 (ix2 (0 : Fin 1) d)) = _
  rw [rowConst_apply, rowConst_apply, rowConst_apply]; rfl

/-! ## The result -/

/-- The program's result array is `kernelForm` of the four arguments. -/
theorem result_eq (c : Dev nD) : W5 m ρ c (Proc.devRef .tc main_v17)
    = kernelForm (m ((c : Thread nD τ).loc main_arg0)) (m ((c : Thread nD τ).loc main_arg1))
        (m ((c : Thread nD τ).loc main_arg2)) (m ((c : Thread nD τ).loc main_arg3)) := by
  rw [result_arr, second_x, second_noise, second_gamma, second_beta, second_mean, second_rdev]
  funext i
  obtain ⟨b, s, d, rfl⟩ : ∃ (b : Fin 16) (s : Fin 512) (d : Fin 8576), i = ix3 b s d := ⟨i 0, i 1, i 2, eq_ix3 i⟩
  have hlt : 512 * b.val + s.val < 8192 := by have := b.isLt; have := s.isLt; omega
  rw [unflat_apply _ b s d ⟨512 * b.val + s.val, hlt⟩ rfl]
  unfold normArr kernelForm
  have hcol : colOf (ix2 (⟨512 * b.val + s.val, hlt⟩ : Fin 8192) d) = ix2 (0 : Fin 1) d := rfl
  rw [hcol, flat_apply, flat_apply, rowIdx_of b s d _ rfl, shapeCast_a_1a_apply, shapeCast_a_1a_apply,
    rdevRow_apply, meanRow_apply, sumRow_apply, sqRow_apply]
  rfl

end Cert.KernelIdeal.HostSide

end
-- ==== Proof.RefSide.lean ====
/-
  The reference's result read at an index: per channel, the mean of the column and the mean of its squared
  deviations; per entry, the normalized value scaled and shifted, plus the scaled noise.

  A sum over the first two axes of a [16, 512, 8576] array into [8576] collects, at channel `d`, the entries whose
  last coordinate is `d`; these are the 8192 rows `(n / 512, n % 512, d)`, so the sum is the column sum.
-/
import proofs.«116066_j39367670235562_2_alg».proof.Proof.Gen.ReferenceIdeal.Read
import proofs.«116066_j39367670235562_2_alg».proof.Proof.Spec
import Idealize.ShloMosaic.Lib.ValueIdx
import Idealize.ShloMosaic.PureOps.Ideal.Laws

noncomputable section

open scoped BigOperators

namespace Cert.RefSide

open Idealize.ShloMosaic Idealize.ShloMosaic.ValueIdx Cert.Spec Cert.ReferenceIdeal Cert.ReferenceIdeal.Gen
  Cert.ReferenceIdeal.Read

/-- The entries of channel `d` are the 8192 rows of that channel. -/
theorem sum_filter_col (f : A3.Idx → EReal) (d : Fin 8576) :
    ∑ i ∈ Finset.univ.filter (fun i : A3.Idx => (i 2).val = d.val), f i = ∑ n : Fin 8192, f (rowIdx n d) := by
  symm
  refine Finset.sum_nbij' (fun n => rowIdx n d)
    (fun i => (⟨512 * (i 0).val + (i 1).val, by
      have h0 : (i 0).val < 16 := (i 0).isLt
      have h1 : (i 1).val < 512 := (i 1).isLt
      omega⟩ : Fin 8192)) ?_ ?_ ?_ ?_ ?_
  · intro n _
    exact Finset.mem_filter.mpr ⟨Finset.mem_univ _, rfl⟩
  · intro i _
    exact Finset.mem_univ _
  · intro n _
    apply Fin.ext
    show 512 * (n.val / 512) + n.val % 512 = n.val
    omega
  · intro i hi
    have hd : i 2 = d := Fin.ext (Finset.mem_filter.mp hi).2
    have h1 : (i 1).val < 512 := (i 1).isLt
    funext a
    match a with
    | ⟨0, _⟩ =>
      apply Fin.ext
      show (512 * (i 0).val + (i 1).val) / 512 = (i 0).val
      omega
    | ⟨1, _⟩ =>
      apply Fin.ext
      show (512 * (i 0).val + (i 1).val) % 512 = (i 1).val
      omega
    | ⟨2, _⟩ => exact hd.symm
  · intro n _
    rfl

/-- The sum over the first two axes, at channel `d`, is the initial value plus the column sum. -/
theorem reduce_eq_colSum (h' : S16x512x8576.ReducesTo [0, 1] S8576) (x : A3.Idx → EReal) (init : EReal)
    (j : S8576.Idx) (d : Fin 8576) (hd : (j 0).val = d.val) :
    Ideal.hostReduceAdd h' x init j = init + colSum x d := by
  unfold Ideal.hostReduceAdd
  refine congrArg (init + ·) ?_
  refine Eq.trans ?_ (sum_filter_col x d)
  refine Finset.sum_congr (Finset.filter_congr fun i _ => ?_) fun _ _ => rfl
  constructor
  · intro h
    rw [← hd, ← h'.drop_apply_val_of_eq i 0 2]
    exact congrArg Fin.val (congrFun h 0)
  · intro h
    funext b
    match b with
    | ⟨0, _⟩ =>
      apply Fin.ext
      exact (h'.drop_apply_val_of_eq i 0 2).trans (h.trans hd.symm)

/-- The reference's mean vector at channel `d` is the mean of the column. -/
theorem v2_eq (x0 : (⟨S16x512x8576, .f32⟩ : BufTy).Contents (Elt Ideal)) (d : Fin 8576) :
    val_main_v2 (F := Ideal) x0 (ix1 d) = mean x0 d := by
  rw [val_main_v2_apply, val_main_v1_apply, val_main_cst_0_apply]
  show Ideal.div (Ideal.hostReduceAdd reducesTo_S16x512x8576_S8576_d0_1 x0 (Ideal.ofBits .f32 0x00000000#32) (ix1 d))
      (Ideal.ofBits .f32 0x46000000#32) = _
  rw [reduce_eq_colSum _ _ _ _ d rfl, Ideal.ofBits_zero_f32, zero_add]
  rfl

/-- The mean broadcast back over the rows. -/
theorem v4_eq (x0 : (⟨S16x512x8576, .f32⟩ : BufTy).Contents (Elt Ideal)) (b : Fin 16) (s : Fin 512) (d : Fin 8576) :
    val_main_v4 (F := Ideal) x0 (ix3 b s d) = mean x0 d := by
  have e : idx_main_v3 (idx_main_v4 (ix3 b s d)) = ix1 d := funext fun a => match a with | ⟨0, _⟩ => rfl
  rw [val_main_v4_apply, val_main_v3_apply, e, v2_eq]

/-- The squared deviations as one array. -/
theorem v6_eq (x0 : (⟨S16x512x8576, .f32⟩ : BufTy).Contents (Elt Ideal)) :
    val_main_v6 (F := Ideal) x0 = fun i : A3.Idx => (x0 i - mean x0 (i 2)) * (x0 i - mean x0 (i 2)) := by
  funext i
  obtain ⟨b, s, d, rfl⟩ : ∃ b s d, i = ix3 b s d := ⟨_, _, _, eq_ix3 i⟩
  rw [val_main_v6_apply, val_main_v5_apply, v4_eq]
  rfl

/-- The reference's variance vector at channel `d` is the mean of the squared deviations. -/
theorem v9_eq (x0 : (⟨S16x512x8576, .f32⟩ : BufTy).Contents (Elt Ideal)) (d : Fin 8576) :
    val_main_v9 (F := Ideal) x0 (ix1 d) = varDev x0 d := by
  rw [val_main_v9_apply, val_main_v8_apply, val_main_cst_2_apply]
  show Ideal.div (Ideal.hostReduceAdd reducesTo_S16x512x8576_S8576_d0_1 (val_main_v6 (F := Ideal) x0)
      (Ideal.ofBits .f32 0x00000000#32) (ix1 d)) (Ideal.ofBits .f32 0x46000000#32) = _
  rw [reduce_eq_colSum _ _ _ _ d rfl, Ideal.ofBits_zero_f32, zero_add, v6_eq]
  rfl

/-- The reference's result is the form with the variance of deviations. -/
theorem ref_eq (x0 x1 : (⟨S16x512x8576, .f32⟩ : BufTy).Contents (Elt Ideal))
    (x2 x3 : (⟨S8576, .f32⟩ : BufTy).Contents (Elt Ideal)) :
    val_main_v29 (F := Ideal) x0 x1 x2 x3 = refForm x0 x1 x2 x3 := by
  funext i
  obtain ⟨b, s, d, rfl⟩ : ∃ b s d, i = ix3 b s d := ⟨_, _, _, eq_ix3 i⟩
  have e10 : idx_main_v10 (idx_main_v11 (ix3 b s d)) = ix1 d := funext fun a => match a with | ⟨0, _⟩ => rfl
  have e16 : idx_main_v16 (idx_main_v17 (ix3 b s d)) = ix1 d := funext fun a => match a with | ⟨0, _⟩ => rfl
  have e19 : idx_main_v19 (idx_main_v20 (ix3 b s d)) = ix1 d := funext fun a => match a with | ⟨0, _⟩ => rfl
  have e22 : idx_main_v22 (idx_main_v23 (ix3 b s d)) = ix1 d := funext fun a => match a with | ⟨0, _⟩ => rfl
  rw [val_main_v29_apply, val_main_v24_apply, val_main_v21_apply, val_main_v18_apply, val_main_v12_apply,
    val_main_v11_apply, val_main_v10_apply, e10, v2_eq, val_main_v17_apply, val_main_v16_apply, e16,
    val_main_v15_apply, val_main_v14_apply, v9_eq, val_main_v13_apply, val_main_cst_3_apply,
    val_main_v20_apply, val_main_v19_apply, e19, val_main_v23_apply, val_main_v22_apply, e22,
    val_main_v28_apply, val_main_v26_apply, val_main_v25_apply, val_main_cst_4_apply,
    val_main_v27_apply, val_main_cst_5_apply]
  rfl

end Cert.RefSide

end
-- ==== Proof.Algebra.lean ====
/-
  The algebra: on real entries the two forms of the result agree.

  With `μ = (∑ₙ aₙ) / N` over an index set of `N` elements,
  `(∑ₙ (aₙ - μ)·(aₙ - μ)) / N = (∑ₙ aₙ·aₙ) / N - μ·μ`: expand the square and use `∑ₙ aₙ = N·μ`.
  The left side is a mean of squares, so it is nonnegative and the maximum with zero is inert. The last sums
  differ only by grouping, and `+ 0` is the identity.
-/
import proofs.«116066_j39367670235562_2_alg».proof.Proof.Spec

noncomputable section

open scoped BigOperators

namespace Cert.Spec

open Idealize.ShloMosaic Idealize.ShloMosaic.ValueIdx

/-- The mean of the squared deviations is the mean of the squares less the squared mean. -/
theorem real_var {ι : Type} [Fintype ι] (a : ι → ℝ) (N : ℝ) (hN : N ≠ 0) (hc : (Fintype.card ι : ℝ) = N) :
    (∑ n, (a n - (∑ k, a k) * (1 / N)) * (a n - (∑ k, a k) * (1 / N))) * (1 / N)
      = (∑ n, a n * a n) * (1 / N) - ((∑ k, a k) * (1 / N)) * ((∑ k, a k) * (1 / N)) := by
  set μ : ℝ := (∑ k, a k) * (1 / N) with hμ
  have hS : ∑ k, a k = N * μ := by rw [hμ]; field_simp
  have h1 : ∑ n, (a n - μ) * (a n - μ) = ∑ n, a n * a n - 2 * μ * ∑ n, a n + N * (μ * μ) := by
    have : ∀ n, (a n - μ) * (a n - μ) = a n * a n - 2 * μ * a n + μ * μ := fun n => by ring
    simp only [this, Finset.sum_add_distrib, Finset.sum_sub_distrib, ← Finset.mul_sum, Finset.sum_const,
      Finset.card_univ, nsmul_eq_mul, hc]
    ring
  rw [h1, hS]
  field_simp
  ring

/-- The mean of the squares less the squared mean is nonnegative. -/
theorem real_var_nonneg {ι : Type} [Fintype ι] (a : ι → ℝ) (N : ℝ) (hN : 0 < N) (hc : (Fintype.card ι : ℝ) = N) :
    0 ≤ (∑ n, a n * a n) * (1 / N) - ((∑ k, a k) * (1 / N)) * ((∑ k, a k) * (1 / N)) := by
  rw [← real_var a N hN.ne' hc]
  exact mul_nonneg (Finset.sum_nonneg fun n _ => mul_self_nonneg _) (by positivity)

/-- The coercion of the reals into the extended reals commutes with finite sums. -/
theorem coe_sum {ι : Type} (s : Finset ι) (f : ι → ℝ) : ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

/-- The word of the row count denotes the real 8192. -/
theorem nW_eq : nW = ((8192 : ℝ) : EReal) := by
  simp [nW, Ideal.ofBits, Ideal.ieee, -EReal.coe_mul]; norm_num

/-- The zero word denotes zero. -/
theorem zeroW_eq : zeroW = 0 := by
  simp [zeroW, Ideal.ofBits, Ideal.ieee]

/-- The channel of row `n`, channel `d` is `d`. -/
theorem rowIdx_two (n : Fin 8192) (d : Fin 8576) : (rowIdx n d) 2 = d := rfl

/-- A column sum of real entries is the real column sum. -/
theorem colSum_coe (r : A3.Idx → ℝ) (d : Fin 8576) :
    colSum (fun i => (r i : EReal)) d = ((∑ n : Fin 8192, r (rowIdx n d) : ℝ) : EReal) := by
  rw [colSum, coe_sum]

/-- The mean of a channel of real entries is the real mean. -/
theorem mean_coe (r : A3.Idx → ℝ) (d : Fin 8576) :
    mean (fun i => (r i : EReal)) d = (((∑ n : Fin 8192, r (rowIdx n d)) * (1 / 8192) : ℝ) : EReal) := by
  rw [mean, colSum_coe, nW_eq, Ideal.div_coe (by norm_num), ← EReal.coe_mul]

/-- On real entries the clamped variance is the mean of the squares less the squared mean: the maximum is inert. -/
theorem varClamped_coe (r : A3.Idx → ℝ) (d : Fin 8576) :
    varClamped (fun i => (r i : EReal)) d
      = (((∑ n : Fin 8192, r (rowIdx n d) * r (rowIdx n d)) * (1 / 8192)
          - ((∑ n : Fin 8192, r (rowIdx n d)) * (1 / 8192)) * ((∑ n : Fin 8192, r (rowIdx n d)) * (1 / 8192)) : ℝ) : EReal) := by
  have hsq : colSum (fun i => (r i : EReal) * (r i : EReal)) d
      = ((∑ n : Fin 8192, r (rowIdx n d) * r (rowIdx n d) : ℝ) : EReal) := by
    rw [colSum, coe_sum]
    exact Finset.sum_congr rfl fun n _ => (EReal.coe_mul _ _).symm
  rw [varClamped, mean_coe, zeroW_eq, nW_eq, hsq, Ideal.div_coe (by norm_num), ← EReal.coe_mul, ← EReal.coe_mul,
    ← EReal.coe_sub]
  exact max_eq_left (EReal.coe_nonneg.mpr
    (real_var_nonneg (fun n : Fin 8192 => r (rowIdx n d)) 8192 (by norm_num) (by simp)))

/-- On real entries the variance of deviations is the real mean of the squared deviations. -/
theorem varDev_coe (r : A3.Idx → ℝ) (d : Fin 8576) :
    varDev (fun i => (r i : EReal)) d
      = (((∑ n : Fin 8192, (r (rowIdx n d) - (∑ k : Fin 8192, r (rowIdx k d)) * (1 / 8192))
            * (r (rowIdx n d) - (∑ k : Fin 8192, r (rowIdx k d)) * (1 / 8192))) * (1 / 8192) : ℝ) : EReal) := by
  have hdev : colSum (fun i => ((r i : EReal) - mean (fun i => (r i : EReal)) (i 2))
        * ((r i : EReal) - mean (fun i => (r i : EReal)) (i 2))) d
      = ((∑ n : Fin 8192, (r (rowIdx n d) - (∑ k : Fin 8192, r (rowIdx k d)) * (1 / 8192))
            * (r (rowIdx n d) - (∑ k : Fin 8192, r (rowIdx k d)) * (1 / 8192)) : ℝ) : EReal) := by
    rw [colSum, coe_sum]
    refine Finset.sum_congr rfl fun n _ => ?_
    show ((r (rowIdx n d) : EReal) - mean (fun i => (r i : EReal)) ((rowIdx n d) 2))
        * ((r (rowIdx n d) : EReal) - mean (fun i => (r i : EReal)) ((rowIdx n d) 2)) = _
    rw [rowIdx_two, mean_coe, ← EReal.coe_sub, ← EReal.coe_mul]
  rw [varDev, nW_eq, hdev, Ideal.div_coe (by norm_num), ← EReal.coe_mul]

/-- On real entries the two variances agree. -/
theorem varClamped_eq_varDev (r : A3.Idx → ℝ) (d : Fin 8576) :
    varClamped (fun i => (r i : EReal)) d = varDev (fun i => (r i : EReal)) d := by
  rw [varClamped_coe, varDev_coe,
    real_var (fun n : Fin 8192 => r (rowIdx n d)) 8192 (by norm_num) (by simp)]

/-- On finite entries of `x` the two forms of the result are the same function. -/
theorem refForm_eq_kernelForm (x noise : A3.Idx → EReal) (gamma beta : A1.Idx → EReal)
    (hx : ∀ i, ∃ r : ℝ, x i = (r : EReal)) : refForm x noise gamma beta = kernelForm x noise gamma beta := by
  choose r hr using hx
  obtain rfl : x = fun i => (r i : EReal) := funext hr
  funext i
  have hv : varClamped (fun i => (r i : EReal)) (i 2) = varDev (fun i => (r i : EReal)) (i 2) :=
    varClamped_eq_varDev r (i 2)
  unfold refForm kernelForm
  simp only [hv, zeroW_eq, add_zero]

end Cert.Spec

end
-- ==== Proof.Finite.lean ====
/-
  Finiteness: the precondition says that every entry of every float argument has absolute value below +∞, so every
  entry of the first argument is a real.
-/
import proofs.«116066_j39367670235562_2_alg».proof.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The word of +∞ denotes +∞. -/
theorem inf_eq : Ideal.ofBits .f32 0x7F800000#32 = ⊤ := by
  simp [Ideal.ofBits, Ideal.ieee]

/-- Under the precondition every entry of the first argument is a real. -/
theorem x_real [Facts] (a0 a1 : FVec Ideal S16x512x8576 .f32) (a2 a3 : FVec Ideal S8576 .f32)
    (h : fn (F := Ideal) a0 a1 a2 a3 = fun _ => 1#1) : ∀ i, ∃ r : ℝ, a0 i = (r : EReal) := by
  intro i
  have h0 := congrFun h ix0
  dsimp only [fn, fn_part1] at h0
  have h1 := (IntOp.andi_eq_one.1 h0).1
  have h2 := (IntOp.andi_eq_one.1 h1).1
  have h3 := (IntOp.andi_eq_one.1 h2).1
  have h4 := Host.reduce_andi_all _ _ _ _ ix0 h3 i
  have h5 : Ideal.cmp .olt (max (a0 i) (-(a0 i))) (Ideal.ofBits .f32 0x7F800000#32) = 1#1 := h4
  rw [inf_eq] at h5
  have h6 : max (a0 i) (-(a0 i)) < ⊤ := by
    by_contra hn
    simp [Ideal.cmp, hn] at h5
  exact real_of_abs_lt_top _ h6

end Cert.Finite

end
-- ==== Proof.lean ====
/-
  Per-channel normalization with training-mode statistics, then scale, shift and additive scaled noise, over
  x, noise : f32[16, 512, 8576] and gamma, beta : f32[8576] — a two-stage program against a one-pass reference, equal as
  extended reals on finite inputs.

  The two-stage program first accumulates, over 32 blocks of 256 rows of `x` read as [8192, 8576], the column sums
  `S₁` and the column sums of squares `S₂`; the host takes `μ = S₁ / N`, `v = max (S₂ / N - μ·μ) 0` and
  `r = rsqrt (v + ε)`; the second stage returns `((((x - μ)·r)·γ + β) + noise·σ) + 0` over 64 blocks of 128 rows. The
  reference takes the same mean, the variance `(∑ (x - μ)·(x - μ)) / N`, and returns
  `(((x - μ)·r)·γ + β) + (noise·σ + 0)`.

  The program's run names its result as the fold of the launch memory through the host operations and the two
  stages' write-backs, and that fold is read back, entry by entry, to `kernelForm` of the four arguments (no
  hypothesis on them). The reference's run reads to `refForm` of the arguments. On real `x` the two forms agree:
  `(∑ (x - μ)²) / N = S₂ / N - μ²` by expanding the square with `∑ x = N·μ`, a mean of squares is nonnegative so the
  maximum with zero is inert, and the two groupings of the final sum are one sum. The precondition gives exactly
  that every entry of `x` is real.

  The frames of the two programs with kernels are their generated frame certificates; the reference's is its run with
  the result dropped. Nothing was rewritten between the program and its idealization.
-/
import proofs.«116066_j39367670235562_2_alg».proof.Defs
import proofs.«116066_j39367670235562_2_alg».proof.Proof.Gen.Kernel
import proofs.«116066_j39367670235562_2_alg».proof.Proof.Gen.Kernel.Frame
import proofs.«116066_j39367670235562_2_alg».proof.Proof.Gen.KernelIdeal
import proofs.«116066_j39367670235562_2_alg».proof.Proof.Gen.KernelIdeal.Frame
import proofs.«116066_j39367670235562_2_alg».proof.Proof.Gen.ReferenceIdeal
import proofs.«116066_j39367670235562_2_alg».proof.Proof.Gen.Pre_finite_inputs
import proofs.«116066_j39367670235562_2_alg».proof.Proof.Gen.ReferenceIdeal.Run
import proofs.«116066_j39367670235562_2_alg».proof.Proof.Gen.ReferenceIdeal.Read
import proofs.«116066_j39367670235562_2_alg».proof.Proof.KernelRun
import proofs.«116066_j39367670235562_2_alg».proof.Proof.KernelValue
import proofs.«116066_j39367670235562_2_alg».proof.Proof.RefSide
import proofs.«116066_j39367670235562_2_alg».proof.Proof.Algebra
import proofs.«116066_j39367670235562_2_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, `x` finite, both programs end with `kernelForm` of the arguments in
    their result arrays: the two-stage program by its run and the read-back of its fold, the reference by its run,
    its reading as `refForm`, the agreement of the arguments, and the equality of the two forms on real `x`. -/
theorem algebraic : Cert.algebraic_KernelIdeal_ReferenceIdeal := by
  intro m ρ m' ρ' hpre hagree
  refine ⟨fun c => Cert.Spec.kernelForm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.HostSide.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.RefSide.ref_eq, (hagree c).1, (hagree c).2.1, (hagree c).2.2.1,
      (hagree c).2.2.2]
    exact Cert.Spec.refForm_eq_kernelForm _ _ _ _ (Cert.Finite.x_real _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
